-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S10000x128 .f32 .bf16
  ∧ IdealRules.truncf_extf.Statement Cert.KernelIdeal.S128x128 .f32 .bf16
  ∧ IdealRules.truncf_extf.Statement Cert.KernelIdeal.S10000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S10000x256 : Shape := ⟨2, ![10000, 256]⟩
abbrev S200x256 : Shape := ⟨2, ![200, 256]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S400x128, .f32⟩
  | .local _ .vmem, ⟨7, _⟩ => ⟨S400x128, .f32⟩
  | .local _ .vmem, ⟨8, _⟩ => ⟨S10000x256, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S10000x128_S10000x128_S10000x256_d1 : Shape.Concatenates [S10000x128, S10000x128] S10000x256 1
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S200x10000_S200x10000_0_0 : ∀ a, (![0, 0] : Fin 2 → Nat) a + S200x10000.size a ≤ S200x10000.size a
  h_S200x10000 : 0 < S200x10000.numel
  slices_S200x256_o0_0_S200x128 : S200x256.Slices ![0, 0] S200x128
  slices_S200x256_o0_128_S200x128 : S200x256.Slices ![0, 128] S200x128
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelRuns.lean ====
/-
  The kernel body, run once for each of its two control cases.

  The body has one conditional, on the grid coordinate: at the first grid point it loads the whole feature matrix and the
  whole weight matrix, computes the projected features, and stores them (as a pair of column halves) into the scratch
  buffer; at every point it then loads the scratch, loads its two blocks of 200 adjacency rows, and stores two blocks of
  200 result rows into the output window, rows 0-199 and rows 200-399. The scratch is therefore written once, at the
  first point, and only read afterwards: what a later point finds in it is what the first point left.

  Here: the contents of every buffer when the region is entered, each window's block of its array at a grid point, the
  branch condition decided over the grid, the staging memrefs the pipeline passes at a point, and for each case the
  body's triple over ANY whole memrefs - the inputs held at given contents and handed back unchanged, the output window
  taken at anything and handed back with the two stored pieces written, the scratch taken at anything and handed back
  with the stored piece written (first point) or taken and handed back at given contents (later points).
-/
import proofs.«158087_g22574348108057_cont_8to1_711_12_alg».proof.Proof.Gen.Kernel.Launch
import proofs.«158087_g22574348108057_cont_8to1_711_12_alg».proof.Proof.Gen.Kernel.Skeleton
import proofs.«158087_g22574348108057_cont_8to1_711_12_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- What each TensorCore buffer of core `c` holds when the region is entered: no host operation precedes the
    region, so it is the initial memory. -/
abbrev V (c : Dev nD) (b : Ref sig .tc) : Buf (Elt F) ((c : Thread nD τ).loc b) := m ((c : Thread nD τ).loc b)

/-- The program is the region and nothing else. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, fetched there or not (where it is
    not fetched the block index has not moved), for any proof data whose arrays are the entry contents and whose
    body leaves each input block in place. One statement per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch condition -/

/-- The body's one condition, from the grid coordinate: "this is the first grid point". -/
abbrev cond0 (i : grid0.Coords) : Prop := (Scalar.cmpi .ne (Scalar.extui (Scalar.cmpi .eq (BitVec.ofNat 32 (i 0).val) 0#32)) 0#32) = 1#1
/-- It holds at point 0 and at no other of the 25 points. -/
theorem hcond0 : ∀ t : Fin cfg0.N, cond0 (grid0.coords t) ↔ t.val = 0 :=
  (by decide +kernel : ∀ t : Fin grid0.N, cond0 (grid0.coords t) ↔ t.val = 0)

/-- No window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-! ## The memrefs the body is called with -/

/-- One staging buffer of the output window, through which its contents are stated (which one does not matter). -/
abbrev VO : View sig .tc .vmem S400x128 .f32 := (Memref.whole cc0_stg4_0 : Memref sig .tc .vmem S400x128 .f32).view
/-- Each window's current staging memref at point `t`, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch operand: a whole scoped buffer of the kernel's own. -/
abbrev scM : Memref sig .tc .vmem S10000x256 .bf16 := Memref.whole cc0_scratch0
abbrev VS : View sig .tc .vmem S10000x256 .bf16 := scM.view

/-- The core's scoped buffers that are no staging buffer are the one scratch buffer, owned at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## The body's two runs -/

set_option maxHeartbeats 4000000 in
/-- THE FIRST POINT. The pieces the body's stores leave in the output window and in the scratch, with the proof that
    from whole memrefs - the four inputs at given contents, the output window and the scratch at anything - the body
    runs to the continuation holding the inputs as they were and the two written buffers with those pieces. -/
noncomputable def runFirst (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : cond0 i)
    (x0 : Vec F S10000x128 .f32) (x1 : Vec F S128x128 .f32) (x2 : Vec F S200x10000 .f32) (x3 : Vec F S200x10000 .f32) :
    Σ' (L4 : List (View.Piece (Elt F) S400x128 .f32)), { LS : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, HS⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

set_option maxHeartbeats 4000000 in
/-- A LATER POINT. The pieces the body's stores leave in the output window, with the proof that from whole memrefs -
    the four inputs and the scratch at given contents, the output window at anything - the body runs to the
    continuation holding the inputs and the scratch as they were and the output window with those pieces. -/
noncomputable def runLater (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : ¬cond0 i)
    (x0 : Vec F S10000x128 .f32) (x1 : Vec F S128x128 .f32) (x2 : Vec F S200x10000 .f32) (x3 : Vec F S200x10000 .f32) (xs : Vec F S10000x256 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%f6, %hf6, HS⟩, Hk⟩
    obtain rfl := harg1.eq_unread hf0; obtain rfl := harg2.eq_unread hf1; obtain rfl := harg3.eq_unread hf2; obtain rfl := harg4.eq_unread hf3
    obtain rfl := harg6.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.Kernel.Frame

end
-- ==== Proof.KernelData.lean ====
/-
  What the pipeline's buffers hold, point by point.

  The region's 25 grid points run the body in order. The first point writes the scratch (the projected features, as a
  pair of column halves) and every point writes one block of 400 result rows; the four input windows are only read.
  Here: that each case's stores cover what they are stored into (the output window's block is tiled by two stores of
  200 rows; the scratch is stored whole); what each case therefore leaves there, read back; what the scratch holds
  between points - what the FIRST point left in it, since no later point stores to it -; what the output window holds
  after each point; and the pipeline's proof data. The adjacency matrix is handed to the kernel through TWO input
  windows (its even and its odd blocks of 200 rows), so the full share of that one array is dealt between them, a half
  each; every other array is held whole.
-/
import proofs.«158087_g22574348108057_cont_8to1_711_12_alg».proof.Proof.KernelRuns

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's two stores into the output window are the two 200-row tiles of its 400-row block. -/
theorem coverFirstO (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : cond0 i) (x0 : Vec F S10000x128 .f32) (x1 : Vec F S128x128 .f32) (x2 : Vec F S200x10000 .f32) (x3 : Vec F S200x10000 .f32) (y : S400x128.Idx) :
    ∃ pc ∈ (runFirst c i arg1 harg1 arg2 harg2 arg3 harg3 arg4 harg4 arg5 harg5 arg6 harg6 hc0 x0 x1 x2 x3).1, y ∈ pc.1.set :=
  View.cover_of_tiledL (runFirst c i arg1 harg1 arg2 harg2 arg3 harg3 arg4 harg4 arg5 harg5 arg6 harg6 hc0 x0 x1 x2 x3).1 S200x128.size (by sl_kernel_rfl) y

/-- What the first point leaves in the output window's staging buffer: its pieces read back. -/
def outFirst (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : cond0 i) (x0 : Vec F S10000x128 .f32) (x1 : Vec F S128x128 .f32) (x2 : Vec F S200x10000 .f32) (x3 : Vec F S200x10000 .f32) : Vec F S400x128 .f32 :=
  VO.read (Elt F) (VO.writes (Elt F) VO.junk (runFirst c i arg1 harg1 arg2 harg2 arg3 harg3 arg4 harg4 arg5 harg5 arg6 harg6 hc0 x0 x1 x2 x3).1)

/-- The first point's one store into the scratch is of the whole scratch. -/
theorem coverFirstS (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : cond0 i) (x0 : Vec F S10000x128 .f32) (x1 : Vec F S128x128 .f32) (x2 : Vec F S200x10000 .f32) (x3 : Vec F S200x10000 .f32) (y : S10000x256.Idx) :
    ∃ pc ∈ (runFirst c i arg1 harg1 arg2 harg2 arg3 harg3 arg4 harg4 arg5 harg5 arg6 harg6 hc0 x0 x1 x2 x3).2.1, y ∈ pc.1.set :=
  View.cover_of_tiledL (runFirst c i arg1 harg1 arg2 harg2 arg3 harg3 arg4 harg4 arg5 harg5 arg6 harg6 hc0 x0 x1 x2 x3).2.1 S10000x256.size (by sl_kernel_rfl) y

/-- What the first point leaves in the scratch: its piece read back. -/
def scrFirst (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : cond0 i) (x0 : Vec F S10000x128 .f32) (x1 : Vec F S128x128 .f32) (x2 : Vec F S200x10000 .f32) (x3 : Vec F S200x10000 .f32) : Vec F S10000x256 .bf16 :=
  VS.read (Elt F) (VS.writes (Elt F) VS.junk (runFirst c i arg1 harg1 arg2 harg2 arg3 harg3 arg4 harg4 arg5 harg5 arg6 harg6 hc0 x0 x1 x2 x3).2.1)

/-- A later point's two stores into the output window are the two 200-row tiles of its block. -/
theorem coverLaterO (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : ¬cond0 i) (x0 : Vec F S10000x128 .f32) (x1 : Vec F S128x128 .f32) (x2 : Vec F S200x10000 .f32) (x3 : Vec F S200x10000 .f32) (xs : Vec F S10000x256 .bf16) (y : S400x128.Idx) :
    ∃ pc ∈ (runLater c i arg1 harg1 arg2 harg2 arg3 harg3 arg4 harg4 arg5 harg5 arg6 harg6 hc0 x0 x1 x2 x3 xs).1, y ∈ pc.1.set :=
  View.cover_of_tiledL (runLater c i arg1 harg1 arg2 harg2 arg3 harg3 arg4 harg4 arg5 harg5 arg6 harg6 hc0 x0 x1 x2 x3 xs).1 S200x128.size (by sl_kernel_rfl) y

/-- What a later point leaves in the output window's staging buffer: its pieces read back. -/
def outLater (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : ¬cond0 i) (x0 : Vec F S10000x128 .f32) (x1 : Vec F S128x128 .f32) (x2 : Vec F S200x10000 .f32) (x3 : Vec F S200x10000 .f32) (xs : Vec F S10000x256 .bf16) : Vec F S400x128 .f32 :=
  VO.read (Elt F) (VO.writes (Elt F) VO.junk (runLater c i arg1 harg1 arg2 harg2 arg3 harg3 arg4 harg4 arg5 harg5 arg6 harg6 hc0 x0 x1 x2 x3 xs).1)

/-! ## What the buffers hold point by point -/

/-- The first grid point. -/
abbrev t₀ : Fin cfg0.N := ⟨0, by decide⟩

/-- What the scratch holds after the first point, and so before every later one: the first point's piece, of the
    whole feature matrix and the whole weight matrix. -/
def scr (c : Dev nD) : Vec F S10000x256 .bf16 :=
  scrFirst c (grid0.coords t₀) (ms0 t₀) (hs0 t₀) (ms1 t₀) (hs1 t₀) (ms2 t₀) (hs2 t₀) (ms3 t₀) (hs3 t₀) (ms4 t₀) (hs4 t₀) scM (Memref.isWhole_whole _)
    ((hcond0 t₀).mpr rfl) (iblk m c 0 t₀) (iblk m c 1 t₀) (iblk m c 2 t₀) (iblk m c 3 t₀)

/-- What the output window's staging buffer holds after the body at point `t`: the case the point is in, run at the
    point's memrefs and input blocks, a later point over the scratch as the first point left it. -/
def outAt (c : Dev nD) (t : Fin cfg0.N) : Vec F S400x128 .f32 :=
  if h : t.val = 0 then
    outFirst c (grid0.coords t) (ms0 t) (hs0 t) (ms1 t) (hs1 t) (ms2 t) (hs2 t) (ms3 t) (hs3 t) (ms4 t) (hs4 t) scM (Memref.isWhole_whole _)
      ((hcond0 t).mpr h) (iblk m c 0 t) (iblk m c 1 t) (iblk m c 2 t) (iblk m c 3 t)
  else
    outLater c (grid0.coords t) (ms0 t) (hs0 t) (ms1 t) (hs1 t) (ms2 t) (hs2 t) (ms3 t) (hs3 t) (ms4 t) (hs4 t) scM (Memref.isWhole_whole _)
      (fun hc => h ((hcond0 t).mp hc)) (iblk m c 0 t) (iblk m c 1 t) (iblk m c 2 t) (iblk m c 3 t) (scr m c)

theorem outAt_first (c : Dev nD) (t : Fin cfg0.N) (h : t.val = 0) :
    outAt m c t = outFirst c (grid0.coords t) (ms0 t) (hs0 t) (ms1 t) (hs1 t) (ms2 t) (hs2 t) (ms3 t) (hs3 t) (ms4 t) (hs4 t) scM (Memref.isWhole_whole _)
      ((hcond0 t).mpr h) (iblk m c 0 t) (iblk m c 1 t) (iblk m c 2 t) (iblk m c 3 t) := dif_pos h

theorem outAt_later (c : Dev nD) (t : Fin cfg0.N) (h : ¬t.val = 0) :
    outAt m c t = outLater c (grid0.coords t) (ms0 t) (hs0 t) (ms1 t) (hs1 t) (ms2 t) (hs2 t) (ms3 t) (hs3 t) (ms4 t) (hs4 t) scM (Memref.isWhole_whole _)
      (fun hc => h ((hcond0 t).mp hc)) (iblk m c 0 t) (iblk m c 1 t) (iblk m c 2 t) (iblk m c 3 t) (scr m c) := dif_neg h

/-- The region invariant before position `n`: before the first point the scratch at anything (the core's scoped
    buffers that are no staging buffer); afterwards the scratch at what the first point left. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (scr m c)

theorem PhiS_pos (c : Dev nD) (n : ℕ) (hz : n ≠ 0) : PhiS m c n = owns (c : Thread nD τ) scM fullShare (scr m c) := by
  cases n with
  | zero => exact absurd rfl hz
  | succ n => rfl

/-! ## The proof data -/

/-- The proof data of the pipeline on core `c`. The two windows on the adjacency matrix hold a half share of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-- The invariant before the first point and after any point, by name. -/
theorem Phi_zero (c : Dev nD) :
    (dats m 0 c).Φ 0 = Pipeline.scopedRest (Ix := Unit) (Name := ℕ) (U := UR sig nD τ) (Lvl := ℕ) (Val := Elt F) spec0 c := rfl
theorem Phi_castSucc (c : Dev nD) (t : Fin cfg0.N) : (dats m 0 c).Φ t.castSucc = PhiS m c t.val := rfl
theorem Phi_succ (c : Dev nD) (t : Fin cfg0.N) : (dats m 0 c).Φ t.succ = owns (c : Thread nD τ) scM fullShare (scr m c) := rfl
theorem Phi_last (c : Dev nD) : (dats m 0 c).Φ (Fin.last cfg0.N) = owns (c : Thread nD τ) scM fullShare (scr m c) := rfl

/-- What the stores of each case leave, read through the buffer they were made into: the covering pieces' read-back
    depends neither on the view nor on what the buffer held before. -/
theorem scr_of_run (c : Dev nD) (es : scM.view.ty.Contents (Elt F)) :
    scM.view.read (Elt F) (scM.view.writes (Elt F) es
      (runFirst c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀)).2.1) = scr m c :=
  View.read_writes_of_cover scM.view es VS VS.junk
    (runFirst c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀)).2.1
    (coverFirstS c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀))

theorem out_of_first (c : Dev nD) (e4 : (ms4 t₀).view.ty.Contents (Elt F)) :
    (ms4 t₀).view.read (Elt F) ((ms4 t₀).view.writes (Elt F) e4
      (runFirst c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀)).1) = outAt m c t₀ :=
  (View.read_writes_of_cover (ms4 t₀).view e4 VO VO.junk
    (runFirst c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀)).1
    (coverFirstO c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀))).trans
    (outAt_first m c t₀ rfl).symm

theorem out_of_later (c : Dev nD) (t : Fin cfg0.N) (h : ¬t.val = 0) (e4 : (ms4 t).view.ty.Contents (Elt F)) :
    (ms4 t).view.read (Elt F) ((ms4 t).view.writes (Elt F) e4
      (runLater c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (scr m c)).1) = outAt m c t :=
  (View.read_writes_of_cover (ms4 t).view e4 VO VO.junk
    (runLater c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (scr m c)).1
    (coverLaterO c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (scr m c))).trans
    (outAt_later m c t h).symm

end Cert.Kernel.Frame

end
-- ==== Proof.KernelBody.lean ====
/-
  The body obligation of the pipeline.

  At every grid point, from the invariant (the scratch at anything before the first point, at what the first point left
  before a later one), the four input staging buffers at their blocks and the output's at anything, the body runs to the
  next invariant (the scratch at what the first point left), the inputs as they were, and the output's buffer at what
  the point's two stores leave. It is the run of the case the point is in, the condition decided by the point's number.
-/
import proofs.«158087_g22574348108057_cont_8to1_711_12_alg».proof.Proof.KernelData

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- No window is idle, so what the body returns of each staging buffer is its contents after the body. -/
theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (outAt m c t) := by
  unfold Dat.leavesExact; rw [live4 t, after4]

set_option maxHeartbeats 1000000 in
/-- THE FIRST POINT: the scratch taken at anything, given back at the first point's piece. -/
theorem sound_first (c : Dev nD) :
    bodyPre m c t₀ ⊢ wp frame (wpE (defs₀ (F := F)) Variants.none c none) Set.univ (bodyAt0 t₀) (fun _ => bodyPost m c t₀) := by
  unfold bodyPre bodyPost bodyAt0
  simp only [before0, before1, before2, before3]
  rw [show (dats m 0 c).owesAt () t₀.succ = (dats m 0 c).owesAt () t₀.castSucc from rfl]
  rw [Phi_succ, leaves0, leaves1, leaves2, leaves3, leaves4]
  rw [show (dats m 0 c).Φ t₀.castSucc = Pipeline.scopedRest (Ix := Unit) (Name := ℕ) (U := UR sig nD τ) (Lvl := ℕ) (Val := Elt F) spec0 c from rfl,
    scoped_eq]
  iintro ⟨HS, Ho, ⟨%d0, H0⟩, ⟨%d1, H1⟩, ⟨%d2, H2⟩, ⟨%d3, H3⟩, ⟨%d4, H4⟩⟩
  iapply ((runFirst c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀)).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS]
  · unfold owns; iexists _; isplitr
    swap; · iexact HS
    ipureintro; exact scr_of_run m c es
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact out_of_first m c e4

set_option maxHeartbeats 1000000 in
/-- A LATER POINT: the scratch taken, and given back, at the first point's piece. -/
theorem sound_later (c : Dev nD) (t : Fin cfg0.N) (h0 : ¬t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [Phi_succ, leaves0, leaves1, leaves2, leaves3, leaves4]
  rw [Phi_castSucc, PhiS_pos m c _ h0]
  iintro ⟨HS, Ho, ⟨%d0, H0⟩, ⟨%d1, H1⟩, ⟨%d2, H2⟩, ⟨%d3, H3⟩, ⟨%d4, H4⟩⟩
  iapply ((runLater c (grid0.coords t) (ms0 t) (hs0 t) (ms1 t) (hs1 t) (ms2 t) (hs2 t) (ms3 t) (hs3 t) (ms4 t) (hs4 t) scM (Memref.isWhole_whole _) (fun hc => h0 ((hcond0 t).mp hc)) (iblk m c 0 t) (iblk m c 1 t) (iblk m c 2 t) (iblk m c 3 t) (scr m c)).2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS]; · iexact HS
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact out_of_later m c t h0 e4

/-- The library's body obligation, at every point. -/
theorem body_obligation (c : Dev nD) : BodyObligation (dats (F := F) m 0 c) (defs₀ (F := F)) Variants.none () Set.univ := fun t => by
  rw [bigSep_W0, bigSep_W0]
  by_cases h0 : t.val = 0
  · obtain rfl : t = t₀ := Fin.ext h0
    exact sound_first m c
  · exact sound_later m c t h0

end Cert.Kernel.Frame

end
-- ==== Proof.LibSharedFrame.lean ====
/-
  The frame run of a one-region pipeline whose INPUT windows may share an array.

  A kernel handed one array through two input windows reads two different blocks of it at each grid point.
  Neither window writes the array, so the array's full share can be dealt among the windows on it; every
  other unscoped buffer bypasses the region and is read back at the end unchanged. The statement is the
  library's frame run with the arrays' distinctness replaced by the one entailment that says how the
  distinct buffers behind the arrays, each held whole, make up the windows' holdings at entry.
-/
import Idealize.ShloMosaic.Lib.Pipeline.Frame

noncomputable section

namespace Cert.Lib

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run when windows may share arrays: the region invariant is entered from the scoped rest and returns it;
    the buffers behind the windows' arrays, whole at the entry contents, yield the windows' holdings (`hsplit`);
    every array ends at what the write-backs leave and every bypassing buffer as the region found it. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := BI.Entails.refl _)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr
      · iempintro
      · iexact HU)
    (hin := fun c => (show iprop(emp ∗ scopedRest (cfgs p).spec c) ⊢ (scopedRest (cfgs p).spec c : sProp 𝕄) from by
      iintro ⟨-, H⟩; iexact H).trans (hin c))
    (hout := fun c => (hout c).trans (by
      iintro H
      isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib

end
-- ==== Proof.KernelAround.lean ====
/-
  Around the region: how what the launch hands the pipeline becomes its holdings at entry, and what it gives back.

  The launch hands the region the core's scoped buffers that are no staging buffer - the one scratch - at anything: that
  is the invariant before the first point; after the last point the invariant gives the scratch back, its contents
  forgotten. Of the unscoped buffers it hands over the FOUR distinct buffers behind the FIVE windows' arrays, each whole
  at the full share: the feature matrix, the weight matrix and the result go to their one window each; the adjacency
  matrix's full share is split into its two halves, one for each of the two windows that read it.
-/
import proofs.«158087_g22574348108057_cont_8to1_711_12_alg».proof.Proof.KernelData
import proofs.«158087_g22574348108057_cont_8to1_711_12_alg».proof.Proof.LibSharedFrame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region of the core's scoped buffers is the invariant before the first point. -/
theorem hin (c : Dev nD) : (Pipeline.scopedRest (cfgs 0).spec c : sProp 𝕄) ⊢ (dats m 0 c).Φ 0 :=
  Idealize.SL.BI.Entails.refl _

/-- After the last point the invariant gives the scratch back, its contents forgotten. -/
theorem hout (c : Dev nD) : (dats m 0 c).Φ (Fin.last (cfgs 0).N) ⊢ (Pipeline.scopedRest (cfgs 0).spec c : sProp 𝕄) := by
  rw [show (dats m 0 c).Φ (Fin.last (cfgs 0).N) = owns (c : Thread nD τ) scM fullShare (scr m c) from rfl]
  rw [show (Pipeline.scopedRest (cfgs 0).spec c : sProp 𝕄) = Pipeline.scopedRest (Ix := Unit) (Name := ℕ) (U := UR sig nD τ) (Lvl := ℕ) (Val := Elt F) spec0 c from rfl,
    scoped_eq]
  iintro HS
  iexists _; iexact HS

/-- The distinct buffers behind the windows' arrays, one by one. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg2) ↦{fullShare} W main_arg2)
          ∗ (((c : Thread nD τ).loc main_arg1) ↦{fullShare} W main_arg1) ∗ (((c : Thread nD τ).loc main_v0) ↦{fullShare} W main_v0)) :=
  bigSep_eq_bigSepL_of_eq [main_arg0, main_arg2, main_arg1, main_v0] (by decide) (by decide) _

/-- The windows' holdings at entry, one by one: each window's array, whole, at the window's share. -/
theorem arrays_eq (c : Dev nD) :
    ((dats m 0 c).arrays ((dats m 0 c).arrAt · 0) : sProp 𝕄)
      = iprop((((c : Thread nD τ).loc main_arg0) ↦{fullShare} V m c main_arg0) ∗ (((c : Thread nD τ).loc main_arg2) ↦{fullShare} V m c main_arg2)
          ∗ (((c : Thread nD τ).loc main_arg1) ↦{fullShare.left} V m c main_arg1) ∗ (((c : Thread nD τ).loc main_arg1) ↦{fullShare.right} V m c main_arg1)
          ∗ (((c : Thread nD τ).loc main_v0) ↦{fullShare} V m c main_v0)) := by
  unfold Dat.arrays
  rw [bigSep_W0]
  rw [(arr_whole0 0).set_eq_univ, (arr_whole0 1).set_eq_univ, (arr_whole0 2).set_eq_univ, (arr_whole0 4).set_eq_univ]
  rfl

/-- The share split. -/
theorem hsplit (c : Dev nD) :
    (Pipeline.arrBufs (cfgs 0).spec c (V m c) : sProp 𝕄) ⊢ (dats m 0 c).arrays ((dats m 0 c).arrAt · 0) := by
  rw [show (Pipeline.arrBufs (cfgs 0).spec c (V m c) : sProp 𝕄) = Pipeline.arrBufs spec0 c (V m c) from rfl, arrBufs_eq, arrays_eq]
  iintro ⟨H0, H2, H1, H3⟩
  ihave H1' := (pointsTo_share (PosShare.mem_left_op_right fullShare)).1 $$ H1
  icases H1' with ⟨H1l, H1r⟩
  isplitl [H0]; · iexact H0
  isplitl [H2]; · iexact H2
  isplitl [H1l]; · iexact H1l
  isplitl [H1r]; · iexact H1r
  iexact H3

end Cert.Kernel.Frame

end
-- ==== Proof.KernelFrame.lean ====
/-
  The run of the one-region program, and its frame.

  The launch is the library's frame run for a pipeline whose input windows share an array: from the body obligation, the
  invariant's entry and exit and the share split, every weakly fair execution of the program terminates, nothing faults,
  each array of the pipeline ends at what the write-backs leave (an input array at its entry contents) and every other
  unscoped buffer as the region found it. The three argument arrays are input arrays of the pipeline: they end as they
  began.
-/
import proofs.«158087_g22574348108057_cont_8to1_711_12_alg».proof.Proof.KernelBody
import proofs.«158087_g22574348108057_cont_8to1_711_12_alg».proof.Proof.KernelAround

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: its post names the result array after the last write-back and keeps every input array. -/
theorem run_main : θ_run defs (onTc (τ := τ) (main (F := F))) (s₀ m ρ) (Pipeline.FramePost cfgs (dats m) 0 (V m)) :=
  Cert.Lib.θ_run_frame_shared cfgs (dats m) (0 : Fin 1) cellOf_inj winFacts₀0 block_pos0 arr_whole0 stage_whole0 defs₀ Variants.none m ρ main
    (hbody := fun c => (body_obligation m c).loose) (howed := fun _ _ => rfl) (V := V m)
    (hmain := hmain m Variants.none) (hsplit := hsplit m) (hin := hin m) (hout := hout m)

/-- THE FRAME: every weakly fair execution terminates, nothing faults, and the three argument arrays end as they began
    (the feature matrix is window 0's array, the adjacency matrix window 2's, the weight matrix window 1's). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 2).trans (((dats m 0 c).arrAt_in 2 rfl _).trans (A_eq m c 2)),
     ((h c).1 1).trans (((dats m 0 c).arrAt_in 1 rfl _).trans (A_eq m c 1))⟩) (run_main m ρ)

end Cert.Kernel.Frame

end
-- ==== Proof.KernelIdealRuns.lean ====
/-
  The kernel body, run once for each of its two control cases.

  The body has one conditional, on the grid coordinate: at the first grid point it loads the whole feature matrix and the
  whole weight matrix, computes the projected features, and stores them (as a pair of column halves) into the scratch
  buffer; at every point it then loads the scratch, loads its two blocks of 200 adjacency rows, and stores two blocks of
  200 result rows into the output window, rows 0-199 and rows 200-399. The scratch is therefore written once, at the
  first point, and only read afterwards: what a later point finds in it is what the first point left.

  Here: the contents of every buffer when the region is entered, each window's block of its array at a grid point, the
  branch condition decided over the grid, the staging memrefs the pipeline passes at a point, and for each case the
  body's triple over ANY whole memrefs - the inputs held at given contents and handed back unchanged, the output window
  taken at anything and handed back with the two stored pieces written, the scratch taken at anything and handed back
  with the stored piece written (first point) or taken and handed back at given contents (later points).
-/
import proofs.«158087_g22574348108057_cont_8to1_711_12_alg».proof.Proof.Gen.KernelIdeal.Launch
import proofs.«158087_g22574348108057_cont_8to1_711_12_alg».proof.Proof.Gen.KernelIdeal.Skeleton
import proofs.«158087_g22574348108057_cont_8to1_711_12_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- What each TensorCore buffer of core `c` holds when the region is entered: no host operation precedes the
    region, so it is the initial memory. -/
abbrev V (c : Dev nD) (b : Ref sig .tc) : Buf (Elt F) ((c : Thread nD τ).loc b) := m ((c : Thread nD τ).loc b)

/-- The program is the region and nothing else. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, fetched there or not (where it is
    not fetched the block index has not moved), for any proof data whose arrays are the entry contents and whose
    body leaves each input block in place. One statement per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch condition -/

/-- The body's one condition, from the grid coordinate: "this is the first grid point". -/
abbrev cond0 (i : grid0.Coords) : Prop := (Scalar.cmpi .ne (Scalar.extui (Scalar.cmpi .eq (BitVec.ofNat 32 (i 0).val) 0#32)) 0#32) = 1#1
/-- It holds at point 0 and at no other of the 25 points. -/
theorem hcond0 : ∀ t : Fin cfg0.N, cond0 (grid0.coords t) ↔ t.val = 0 :=
  (by decide +kernel : ∀ t : Fin grid0.N, cond0 (grid0.coords t) ↔ t.val = 0)

/-- No window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-! ## The memrefs the body is called with -/

/-- One staging buffer of the output window, through which its contents are stated (which one does not matter). -/
abbrev VO : View sig .tc .vmem S400x128 .f32 := (Memref.whole cc0_stg4_0 : Memref sig .tc .vmem S400x128 .f32).view
/-- Each window's current staging memref at point `t`, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch operand: a whole scoped buffer of the kernel's own. -/
abbrev scM : Memref sig .tc .vmem S10000x256 .bf16 := Memref.whole cc0_scratch0
abbrev VS : View sig .tc .vmem S10000x256 .bf16 := scM.view

/-- The core's scoped buffers that are no staging buffer are the one scratch buffer, owned at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## The body's two runs -/

set_option maxHeartbeats 4000000 in
/-- THE FIRST POINT. The pieces the body's stores leave in the output window and in the scratch, with the proof that
    from whole memrefs - the four inputs at given contents, the output window and the scratch at anything - the body
    runs to the continuation holding the inputs as they were and the two written buffers with those pieces. -/
noncomputable def runFirst (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : cond0 i)
    (x0 : Vec F S10000x128 .f32) (x1 : Vec F S128x128 .f32) (x2 : Vec F S200x10000 .f32) (x3 : Vec F S200x10000 .f32) :
    Σ' (L4 : List (View.Piece (Elt F) S400x128 .f32)), { LS : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, HS⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

set_option maxHeartbeats 4000000 in
/-- A LATER POINT. The pieces the body's stores leave in the output window, with the proof that from whole memrefs -
    the four inputs and the scratch at given contents, the output window at anything - the body runs to the
    continuation holding the inputs and the scratch as they were and the output window with those pieces. -/
noncomputable def runLater (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : ¬cond0 i)
    (x0 : Vec F S10000x128 .f32) (x1 : Vec F S128x128 .f32) (x2 : Vec F S200x10000 .f32) (x3 : Vec F S200x10000 .f32) (xs : Vec F S10000x256 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%f6, %hf6, HS⟩, Hk⟩
    obtain rfl := harg1.eq_unread hf0; obtain rfl := harg2.eq_unread hf1; obtain rfl := harg3.eq_unread hf2; obtain rfl := harg4.eq_unread hf3
    obtain rfl := harg6.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.KernelIdeal.Frame

end
-- ==== Proof.KernelIdealData.lean ====
/-
  What the pipeline's buffers hold, point by point.

  The region's 25 grid points run the body in order. The first point writes the scratch (the projected features, as a
  pair of column halves) and every point writes one block of 400 result rows; the four input windows are only read.
  Here: that each case's stores cover what they are stored into (the output window's block is tiled by two stores of
  200 rows; the scratch is stored whole); what each case therefore leaves there, read back; what the scratch holds
  between points - what the FIRST point left in it, since no later point stores to it -; what the output window holds
  after each point; and the pipeline's proof data. The adjacency matrix is handed to the kernel through TWO input
  windows (its even and its odd blocks of 200 rows), so the full share of that one array is dealt between them, a half
  each; every other array is held whole.
-/
import proofs.«158087_g22574348108057_cont_8to1_711_12_alg».proof.Proof.KernelIdealRuns

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's two stores into the output window are the two 200-row tiles of its 400-row block. -/
theorem coverFirstO (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : cond0 i) (x0 : Vec F S10000x128 .f32) (x1 : Vec F S128x128 .f32) (x2 : Vec F S200x10000 .f32) (x3 : Vec F S200x10000 .f32) (y : S400x128.Idx) :
    ∃ pc ∈ (runFirst c i arg1 harg1 arg2 harg2 arg3 harg3 arg4 harg4 arg5 harg5 arg6 harg6 hc0 x0 x1 x2 x3).1, y ∈ pc.1.set :=
  View.cover_of_tiledL (runFirst c i arg1 harg1 arg2 harg2 arg3 harg3 arg4 harg4 arg5 harg5 arg6 harg6 hc0 x0 x1 x2 x3).1 S200x128.size (by sl_kernel_rfl) y

/-- What the first point leaves in the output window's staging buffer: its pieces read back. -/
def outFirst (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : cond0 i) (x0 : Vec F S10000x128 .f32) (x1 : Vec F S128x128 .f32) (x2 : Vec F S200x10000 .f32) (x3 : Vec F S200x10000 .f32) : Vec F S400x128 .f32 :=
  VO.read (Elt F) (VO.writes (Elt F) VO.junk (runFirst c i arg1 harg1 arg2 harg2 arg3 harg3 arg4 harg4 arg5 harg5 arg6 harg6 hc0 x0 x1 x2 x3).1)

/-- The first point's one store into the scratch is of the whole scratch. -/
theorem coverFirstS (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : cond0 i) (x0 : Vec F S10000x128 .f32) (x1 : Vec F S128x128 .f32) (x2 : Vec F S200x10000 .f32) (x3 : Vec F S200x10000 .f32) (y : S10000x256.Idx) :
    ∃ pc ∈ (runFirst c i arg1 harg1 arg2 harg2 arg3 harg3 arg4 harg4 arg5 harg5 arg6 harg6 hc0 x0 x1 x2 x3).2.1, y ∈ pc.1.set :=
  View.cover_of_tiledL (runFirst c i arg1 harg1 arg2 harg2 arg3 harg3 arg4 harg4 arg5 harg5 arg6 harg6 hc0 x0 x1 x2 x3).2.1 S10000x256.size (by sl_kernel_rfl) y

/-- What the first point leaves in the scratch: its piece read back. -/
def scrFirst (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : cond0 i) (x0 : Vec F S10000x128 .f32) (x1 : Vec F S128x128 .f32) (x2 : Vec F S200x10000 .f32) (x3 : Vec F S200x10000 .f32) : Vec F S10000x256 .bf16 :=
  VS.read (Elt F) (VS.writes (Elt F) VS.junk (runFirst c i arg1 harg1 arg2 harg2 arg3 harg3 arg4 harg4 arg5 harg5 arg6 harg6 hc0 x0 x1 x2 x3).2.1)

/-- A later point's two stores into the output window are the two 200-row tiles of its block. -/
theorem coverLaterO (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : ¬cond0 i) (x0 : Vec F S10000x128 .f32) (x1 : Vec F S128x128 .f32) (x2 : Vec F S200x10000 .f32) (x3 : Vec F S200x10000 .f32) (xs : Vec F S10000x256 .bf16) (y : S400x128.Idx) :
    ∃ pc ∈ (runLater c i arg1 harg1 arg2 harg2 arg3 harg3 arg4 harg4 arg5 harg5 arg6 harg6 hc0 x0 x1 x2 x3 xs).1, y ∈ pc.1.set :=
  View.cover_of_tiledL (runLater c i arg1 harg1 arg2 harg2 arg3 harg3 arg4 harg4 arg5 harg5 arg6 harg6 hc0 x0 x1 x2 x3 xs).1 S200x128.size (by sl_kernel_rfl) y

/-- What a later point leaves in the output window's staging buffer: its pieces read back. -/
def outLater (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : ¬cond0 i) (x0 : Vec F S10000x128 .f32) (x1 : Vec F S128x128 .f32) (x2 : Vec F S200x10000 .f32) (x3 : Vec F S200x10000 .f32) (xs : Vec F S10000x256 .bf16) : Vec F S400x128 .f32 :=
  VO.read (Elt F) (VO.writes (Elt F) VO.junk (runLater c i arg1 harg1 arg2 harg2 arg3 harg3 arg4 harg4 arg5 harg5 arg6 harg6 hc0 x0 x1 x2 x3 xs).1)

/-! ## What the buffers hold point by point -/

/-- The first grid point. -/
abbrev t₀ : Fin cfg0.N := ⟨0, by decide⟩

/-- What the scratch holds after the first point, and so before every later one: the first point's piece, of the
    whole feature matrix and the whole weight matrix. -/
def scr (c : Dev nD) : Vec F S10000x256 .bf16 :=
  scrFirst c (grid0.coords t₀) (ms0 t₀) (hs0 t₀) (ms1 t₀) (hs1 t₀) (ms2 t₀) (hs2 t₀) (ms3 t₀) (hs3 t₀) (ms4 t₀) (hs4 t₀) scM (Memref.isWhole_whole _)
    ((hcond0 t₀).mpr rfl) (iblk m c 0 t₀) (iblk m c 1 t₀) (iblk m c 2 t₀) (iblk m c 3 t₀)

/-- What the output window's staging buffer holds after the body at point `t`: the case the point is in, run at the
    point's memrefs and input blocks, a later point over the scratch as the first point left it. -/
def outAt (c : Dev nD) (t : Fin cfg0.N) : Vec F S400x128 .f32 :=
  if h : t.val = 0 then
    outFirst c (grid0.coords t) (ms0 t) (hs0 t) (ms1 t) (hs1 t) (ms2 t) (hs2 t) (ms3 t) (hs3 t) (ms4 t) (hs4 t) scM (Memref.isWhole_whole _)
      ((hcond0 t).mpr h) (iblk m c 0 t) (iblk m c 1 t) (iblk m c 2 t) (iblk m c 3 t)
  else
    outLater c (grid0.coords t) (ms0 t) (hs0 t) (ms1 t) (hs1 t) (ms2 t) (hs2 t) (ms3 t) (hs3 t) (ms4 t) (hs4 t) scM (Memref.isWhole_whole _)
      (fun hc => h ((hcond0 t).mp hc)) (iblk m c 0 t) (iblk m c 1 t) (iblk m c 2 t) (iblk m c 3 t) (scr m c)

theorem outAt_first (c : Dev nD) (t : Fin cfg0.N) (h : t.val = 0) :
    outAt m c t = outFirst c (grid0.coords t) (ms0 t) (hs0 t) (ms1 t) (hs1 t) (ms2 t) (hs2 t) (ms3 t) (hs3 t) (ms4 t) (hs4 t) scM (Memref.isWhole_whole _)
      ((hcond0 t).mpr h) (iblk m c 0 t) (iblk m c 1 t) (iblk m c 2 t) (iblk m c 3 t) := dif_pos h

theorem outAt_later (c : Dev nD) (t : Fin cfg0.N) (h : ¬t.val = 0) :
    outAt m c t = outLater c (grid0.coords t) (ms0 t) (hs0 t) (ms1 t) (hs1 t) (ms2 t) (hs2 t) (ms3 t) (hs3 t) (ms4 t) (hs4 t) scM (Memref.isWhole_whole _)
      (fun hc => h ((hcond0 t).mp hc)) (iblk m c 0 t) (iblk m c 1 t) (iblk m c 2 t) (iblk m c 3 t) (scr m c) := dif_neg h

/-- The region invariant before position `n`: before the first point the scratch at anything (the core's scoped
    buffers that are no staging buffer); afterwards the scratch at what the first point left. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (scr m c)

theorem PhiS_pos (c : Dev nD) (n : ℕ) (hz : n ≠ 0) : PhiS m c n = owns (c : Thread nD τ) scM fullShare (scr m c) := by
  cases n with
  | zero => exact absurd rfl hz
  | succ n => rfl

/-! ## The proof data -/

/-- The proof data of the pipeline on core `c`. The two windows on the adjacency matrix hold a half share of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-- The invariant before the first point and after any point, by name. -/
theorem Phi_zero (c : Dev nD) :
    (dats m 0 c).Φ 0 = Pipeline.scopedRest (Ix := Unit) (Name := ℕ) (U := UR sig nD τ) (Lvl := ℕ) (Val := Elt F) spec0 c := rfl
theorem Phi_castSucc (c : Dev nD) (t : Fin cfg0.N) : (dats m 0 c).Φ t.castSucc = PhiS m c t.val := rfl
theorem Phi_succ (c : Dev nD) (t : Fin cfg0.N) : (dats m 0 c).Φ t.succ = owns (c : Thread nD τ) scM fullShare (scr m c) := rfl
theorem Phi_last (c : Dev nD) : (dats m 0 c).Φ (Fin.last cfg0.N) = owns (c : Thread nD τ) scM fullShare (scr m c) := rfl

/-- What the stores of each case leave, read through the buffer they were made into: the covering pieces' read-back
    depends neither on the view nor on what the buffer held before. -/
theorem scr_of_run (c : Dev nD) (es : scM.view.ty.Contents (Elt F)) :
    scM.view.read (Elt F) (scM.view.writes (Elt F) es
      (runFirst c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀)).2.1) = scr m c :=
  View.read_writes_of_cover scM.view es VS VS.junk
    (runFirst c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀)).2.1
    (coverFirstS c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀))

theorem out_of_first (c : Dev nD) (e4 : (ms4 t₀).view.ty.Contents (Elt F)) :
    (ms4 t₀).view.read (Elt F) ((ms4 t₀).view.writes (Elt F) e4
      (runFirst c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀)).1) = outAt m c t₀ :=
  (View.read_writes_of_cover (ms4 t₀).view e4 VO VO.junk
    (runFirst c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀)).1
    (coverFirstO c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀))).trans
    (outAt_first m c t₀ rfl).symm

theorem out_of_later (c : Dev nD) (t : Fin cfg0.N) (h : ¬t.val = 0) (e4 : (ms4 t).view.ty.Contents (Elt F)) :
    (ms4 t).view.read (Elt F) ((ms4 t).view.writes (Elt F) e4
      (runLater c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (scr m c)).1) = outAt m c t :=
  (View.read_writes_of_cover (ms4 t).view e4 VO VO.junk
    (runLater c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (scr m c)).1
    (coverLaterO c (grid0.coords t) (ms0 t) (hs0 t) (ms1 t) (hs1 t) (ms2 t) (hs2 t) (ms3 t) (hs3 t) (ms4 t) (hs4 t) scM (Memref.isWhole_whole _) (fun hc => h ((hcond0 t).mp hc)) (iblk m c 0 t) (iblk m c 1 t) (iblk m c 2 t) (iblk m c 3 t) (scr m c))).trans
    (outAt_later m c t h).symm

end Cert.KernelIdeal.Frame

end
-- ==== Proof.KernelIdealBody.lean ====
/-
  The body obligation of the pipeline.

  At every grid point, from the invariant (the scratch at anything before the first point, at what the first point left
  before a later one), the four input staging buffers at their blocks and the output's at anything, the body runs to the
  next invariant (the scratch at what the first point left), the inputs as they were, and the output's buffer at what
  the point's two stores leave. It is the run of the case the point is in, the condition decided by the point's number.
-/
import proofs.«158087_g22574348108057_cont_8to1_711_12_alg».proof.Proof.KernelIdealData

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- No window is idle, so what the body returns of each staging buffer is its contents after the body. -/
theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (outAt m c t) := by
  unfold Dat.leavesExact; rw [live4 t, after4]

set_option maxHeartbeats 1000000 in
/-- THE FIRST POINT: the scratch taken at anything, given back at the first point's piece. -/
theorem sound_first (c : Dev nD) :
    bodyPre m c t₀ ⊢ wp frame (wpE (defs₀ (F := F)) Variants.none c none) Set.univ (bodyAt0 t₀) (fun _ => bodyPost m c t₀) := by
  unfold bodyPre bodyPost bodyAt0
  simp only [before0, before1, before2, before3]
  rw [show (dats m 0 c).owesAt () t₀.succ = (dats m 0 c).owesAt () t₀.castSucc from rfl]
  rw [Phi_succ, leaves0, leaves1, leaves2, leaves3, leaves4]
  rw [show (dats m 0 c).Φ t₀.castSucc = Pipeline.scopedRest (Ix := Unit) (Name := ℕ) (U := UR sig nD τ) (Lvl := ℕ) (Val := Elt F) spec0 c from rfl,
    scoped_eq]
  iintro ⟨HS, Ho, ⟨%d0, H0⟩, ⟨%d1, H1⟩, ⟨%d2, H2⟩, ⟨%d3, H3⟩, ⟨%d4, H4⟩⟩
  iapply ((runFirst c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀)).2.2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, ⟨%es, HS⟩⟩
  isplitl [HS]
  · unfold owns; iexists _; isplitr
    swap; · iexact HS
    ipureintro; exact scr_of_run m c es
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact out_of_first m c e4

set_option maxHeartbeats 1000000 in
/-- A LATER POINT: the scratch taken, and given back, at the first point's piece. -/
theorem sound_later (c : Dev nD) (t : Fin cfg0.N) (h0 : ¬t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [Phi_succ, leaves0, leaves1, leaves2, leaves3, leaves4]
  rw [Phi_castSucc, PhiS_pos m c _ h0]
  iintro ⟨HS, Ho, ⟨%d0, H0⟩, ⟨%d1, H1⟩, ⟨%d2, H2⟩, ⟨%d3, H3⟩, ⟨%d4, H4⟩⟩
  iapply ((runLater c (grid0.coords t) (ms0 t) (hs0 t) (ms1 t) (hs1 t) (ms2 t) (hs2 t) (ms3 t) (hs3 t) (ms4 t) (hs4 t) scM (Memref.isWhole_whole _) (fun hc => h0 ((hcond0 t).mp hc)) (iblk m c 0 t) (iblk m c 1 t) (iblk m c 2 t) (iblk m c 3 t) (scr m c)).2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS]; · iexact HS
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact out_of_later m c t h0 e4

/-- The library's body obligation, at every point. -/
theorem body_obligation (c : Dev nD) : BodyObligation (dats (F := F) m 0 c) (defs₀ (F := F)) Variants.none () Set.univ := fun t => by
  rw [bigSep_W0, bigSep_W0]
  by_cases h0 : t.val = 0
  · obtain rfl : t = t₀ := Fin.ext h0
    exact sound_first m c
  · exact sound_later m c t h0

end Cert.KernelIdeal.Frame

end
-- ==== Proof.KernelIdealAround.lean ====
/-
  Around the region: how what the launch hands the pipeline becomes its holdings at entry, and what it gives back.

  The launch hands the region the core's scoped buffers that are no staging buffer - the one scratch - at anything: that
  is the invariant before the first point; after the last point the invariant gives the scratch back, its contents
  forgotten. Of the unscoped buffers it hands over the FOUR distinct buffers behind the FIVE windows' arrays, each whole
  at the full share: the feature matrix, the weight matrix and the result go to their one window each; the adjacency
  matrix's full share is split into its two halves, one for each of the two windows that read it.
-/
import proofs.«158087_g22574348108057_cont_8to1_711_12_alg».proof.Proof.KernelIdealData
import proofs.«158087_g22574348108057_cont_8to1_711_12_alg».proof.Proof.LibSharedFrame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region of the core's scoped buffers is the invariant before the first point. -/
theorem hin (c : Dev nD) : (Pipeline.scopedRest (cfgs 0).spec c : sProp 𝕄) ⊢ (dats m 0 c).Φ 0 :=
  Idealize.SL.BI.Entails.refl _

/-- After the last point the invariant gives the scratch back, its contents forgotten. -/
theorem hout (c : Dev nD) : (dats m 0 c).Φ (Fin.last (cfgs 0).N) ⊢ (Pipeline.scopedRest (cfgs 0).spec c : sProp 𝕄) := by
  rw [show (dats m 0 c).Φ (Fin.last (cfgs 0).N) = owns (c : Thread nD τ) scM fullShare (scr m c) from rfl]
  rw [show (Pipeline.scopedRest (cfgs 0).spec c : sProp 𝕄) = Pipeline.scopedRest (Ix := Unit) (Name := ℕ) (U := UR sig nD τ) (Lvl := ℕ) (Val := Elt F) spec0 c from rfl,
    scoped_eq]
  iintro HS
  iexists _; iexact HS

/-- The distinct buffers behind the windows' arrays, one by one. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg2) ↦{fullShare} W main_arg2)
          ∗ (((c : Thread nD τ).loc main_arg1) ↦{fullShare} W main_arg1) ∗ (((c : Thread nD τ).loc main_v0) ↦{fullShare} W main_v0)) :=
  bigSep_eq_bigSepL_of_eq [main_arg0, main_arg2, main_arg1, main_v0] (by decide) (by decide) _

/-- The windows' holdings at entry, one by one: each window's array, whole, at the window's share. -/
theorem arrays_eq (c : Dev nD) :
    ((dats m 0 c).arrays ((dats m 0 c).arrAt · 0) : sProp 𝕄)
      = iprop((((c : Thread nD τ).loc main_arg0) ↦{fullShare} V m c main_arg0) ∗ (((c : Thread nD τ).loc main_arg2) ↦{fullShare} V m c main_arg2)
          ∗ (((c : Thread nD τ).loc main_arg1) ↦{fullShare.left} V m c main_arg1) ∗ (((c : Thread nD τ).loc main_arg1) ↦{fullShare.right} V m c main_arg1)
          ∗ (((c : Thread nD τ).loc main_v0) ↦{fullShare} V m c main_v0)) := by
  unfold Dat.arrays
  rw [bigSep_W0]
  rw [(arr_whole0 0).set_eq_univ, (arr_whole0 1).set_eq_univ, (arr_whole0 2).set_eq_univ, (arr_whole0 4).set_eq_univ]
  rfl

/-- The share split. -/
theorem hsplit (c : Dev nD) :
    (Pipeline.arrBufs (cfgs 0).spec c (V m c) : sProp 𝕄) ⊢ (dats m 0 c).arrays ((dats m 0 c).arrAt · 0) := by
  rw [show (Pipeline.arrBufs (cfgs 0).spec c (V m c) : sProp 𝕄) = Pipeline.arrBufs spec0 c (V m c) from rfl, arrBufs_eq, arrays_eq]
  iintro ⟨H0, H2, H1, H3⟩
  ihave H1' := (pointsTo_share (PosShare.mem_left_op_right fullShare)).1 $$ H1
  icases H1' with ⟨H1l, H1r⟩
  isplitl [H0]; · iexact H0
  isplitl [H2]; · iexact H2
  isplitl [H1l]; · iexact H1l
  isplitl [H1r]; · iexact H1r
  iexact H3

end Cert.KernelIdeal.Frame

end
-- ==== Proof.KernelIdealFrame.lean ====
/-
  The run of the one-region program, and its frame.

  The launch is the library's frame run for a pipeline whose input windows share an array: from the body obligation, the
  invariant's entry and exit and the share split, every weakly fair execution of the program terminates, nothing faults,
  each array of the pipeline ends at what the write-backs leave (an input array at its entry contents) and every other
  unscoped buffer as the region found it. The three argument arrays are input arrays of the pipeline: they end as they
  began.
-/
import proofs.«158087_g22574348108057_cont_8to1_711_12_alg».proof.Proof.KernelIdealBody
import proofs.«158087_g22574348108057_cont_8to1_711_12_alg».proof.Proof.KernelIdealAround

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: its post names the result array after the last write-back and keeps every input array. -/
theorem run_main : θ_run defs (onTc (τ := τ) (main (F := F))) (s₀ m ρ) (Pipeline.FramePost cfgs (dats m) 0 (V m)) :=
  Cert.Lib.θ_run_frame_shared cfgs (dats m) (0 : Fin 1) cellOf_inj winFacts₀0 block_pos0 arr_whole0 stage_whole0 defs₀ Variants.none m ρ main
    (hbody := fun c => (body_obligation m c).loose) (howed := fun _ _ => rfl) (V := V m)
    (hmain := hmain m Variants.none) (hsplit := hsplit m) (hin := hin m) (hout := hout m)

/-- THE FRAME: every weakly fair execution terminates, nothing faults, and the three argument arrays end as they began
    (the feature matrix is window 0's array, the adjacency matrix window 2's, the weight matrix window 1's). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 2).trans (((dats m 0 c).arrAt_in 2 rfl _).trans (A_eq m c 2)),
     ((h c).1 1).trans (((dats m 0 c).arrAt_in 1 rfl _).trans (A_eq m c 1))⟩) (run_main m ρ)

end Cert.KernelIdeal.Frame

end
-- ==== Proof.KernelIdealPieces.lean ====
/-
  The pieces each case's run found, read as values.

  The first point's one store into the scratch is the stored pair of the whole feature matrix and the whole weight
  matrix (its two loads read the whole input buffers). Each point's two stores into the output window are, on rows 0-199
  and rows 200-399, the two tile functions of what the scratch holds - at the first point what was just stored there,
  read back whole; at a later point what the point was handed - and of the point's two adjacency blocks. So whenever the
  two tile functions agree with ONE function of the block index, the output window holds that function.
-/
import Idealize.ShloMosaic.Lib.Pipeline.Value
import proofs.«158087_g22574348108057_cont_8to1_711_12_alg».proof.Proof.KernelIdealData

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

theorem hz : (![0, 0] : Fin 2 → Nat) = fun _ => 0 := funext fun a => by fin_cases a <;> rfl

/-- The first point leaves in the scratch the stored pair of its two whole inputs. -/
theorem scrFirst_eq (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : cond0 i) (x0 : Vec F S10000x128 .f32) (x1 : Vec F S128x128 .f32) (x2 : Vec F S200x10000 .f32) (x3 : Vec F S200x10000 .f32) : scrFirst c i arg1 harg1 arg2 harg2 arg3 harg3 arg4 harg4 arg5 harg5 arg6 harg6 hc0 x0 x1 x2 x3 = k0_pay1 x0 x1 := by
  unfold scrFirst
  rw [View.read_writes_eq_canon _ _ _ (coverFirstS c i arg1 harg1 arg2 harg2 arg3 harg3 arg4 harg4 arg5 harg5 arg6 harg6 hc0 x0 x1 x2 x3)]
  unfold runFirst
  dsimp only
  sl_unfold_words
  rw [View.canon_unit_zero hz]
  simp only [View.readAt_eq_ld, harg1.read_unread, harg2.read_unread, View.ld_unit_zero (S := S10000x128) hz, View.ld_unit_zero (S := S128x128) hz]

/-- The first point's output window holds any function of the block index that its two tiles agree with. -/
theorem outFirst_apply (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : cond0 i) (x0 : Vec F S10000x128 .f32) (x1 : Vec F S128x128 .f32) (x2 : Vec F S200x10000 .f32) (x3 : Vec F S200x10000 .f32) (G : S400x128.Idx → Elt F .f32)
    (h3 : ∀ x : S200x128.Idx, k0_pay3 (k0_pay1 x0 x1) x3 x = G ((Rect.unit (s := S400x128) ![200, 0] S200x128.size inb_S400x128_S200x128_200_0).emb x))
    (h2 : ∀ x : S200x128.Idx, k0_pay2 (k0_pay1 x0 x1) x2 x = G ((Rect.unit (s := S400x128) ![0, 0] S200x128.size inb_S400x128_S200x128_0_0).emb x))
    (y : S400x128.Idx) : outFirst c i arg1 harg1 arg2 harg2 arg3 harg3 arg4 harg4 arg5 harg5 arg6 harg6 hc0 x0 x1 x2 x3 y = G y := by
  unfold outFirst
  rw [View.read_writes_eq_canon _ _ _ (coverFirstO c i arg1 harg1 arg2 harg2 arg3 harg3 arg4 harg4 arg5 harg5 arg6 harg6 hc0 x0 x1 x2 x3)]
  refine View.canon_apply_of_pieces G _ ?_ y (coverFirstO c i arg1 harg1 arg2 harg2 arg3 harg3 arg4 harg4 arg5 harg5 arg6 harg6 hc0 x0 x1 x2 x3 y)
  unfold runFirst
  dsimp only
  sl_unfold_words
  rw [View.readCov_unit_zero (S := S10000x256) _ hz]
  simp only [View.readAt_eq_ld, harg1.read_unread, harg2.read_unread, harg3.read_unread, harg4.read_unread,
    View.ld_unit_zero (S := S10000x128) hz, View.ld_unit_zero (S := S128x128) hz, View.ld_unit_zero (S := S200x10000) hz]
  intro p hp
  rcases List.mem_cons.mp hp with rfl | hp
  · exact h3
  · rcases List.mem_cons.mp hp with rfl | hp
    · exact h2
    · exact absurd hp List.not_mem_nil

/-- A later point's output window holds any function of the block index that its two tiles agree with. -/
theorem outLater_apply (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S400x128 .f32) (harg5 : arg5.IsWhole) (arg6 : Memref sig .tc .vmem S10000x256 .bf16) (harg6 : arg6.IsWhole)
    (hc0 : ¬cond0 i) (x0 : Vec F S10000x128 .f32) (x1 : Vec F S128x128 .f32) (x2 : Vec F S200x10000 .f32) (x3 : Vec F S200x10000 .f32) (xs : Vec F S10000x256 .bf16) (G : S400x128.Idx → Elt F .f32)
    (h3 : ∀ x : S200x128.Idx, k0_pay3 xs x3 x = G ((Rect.unit (s := S400x128) ![200, 0] S200x128.size inb_S400x128_S200x128_200_0).emb x))
    (h2 : ∀ x : S200x128.Idx, k0_pay2 xs x2 x = G ((Rect.unit (s := S400x128) ![0, 0] S200x128.size inb_S400x128_S200x128_0_0).emb x))
    (y : S400x128.Idx) : outLater c i arg1 harg1 arg2 harg2 arg3 harg3 arg4 harg4 arg5 harg5 arg6 harg6 hc0 x0 x1 x2 x3 xs y = G y := by
  unfold outLater
  rw [View.read_writes_eq_canon _ _ _ (coverLaterO c i arg1 harg1 arg2 harg2 arg3 harg3 arg4 harg4 arg5 harg5 arg6 harg6 hc0 x0 x1 x2 x3 xs)]
  refine View.canon_apply_of_pieces G _ ?_ y (coverLaterO c i arg1 harg1 arg2 harg2 arg3 harg3 arg4 harg4 arg5 harg5 arg6 harg6 hc0 x0 x1 x2 x3 xs y)
  unfold runLater
  dsimp only
  simp only [View.readAt_eq_ld, harg3.read_unread, harg4.read_unread, harg6.read_unread,
    View.ld_unit_zero (S := S10000x256) hz, View.ld_unit_zero (S := S200x10000) hz]
  intro p hp
  rcases List.mem_cons.mp hp with rfl | hp
  · exact h3
  · rcases List.mem_cons.mp hp with rfl | hp
    · exact h2
    · exact absurd hp List.not_mem_nil

/-- What the scratch holds between points is the stored pair of the whole feature matrix and the whole weight matrix as
    the first point's windows read them. -/
theorem scr_eq (c : Dev nD) : scr m c = k0_pay1 (iblk m c 0 t₀) (iblk m c 1 t₀) :=
  scrFirst_eq c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀)

end Cert.KernelIdeal.Frame

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.GcnLayer.lean ====
/-
  The graph-convolution layer as one function of its three arguments, and the law that joins the kernel to it.

  The layer is  out = relu(adj · (x · W)):  with h(k, q) = Σ_j x(k, j) · W(j, q),
      out(p, q) = max(Σ_k adj(p, k) · h(k, q), 0).

  The kernel computes the same number another way. It splits each operand v of the first product into a leading part
  and a remainder v - (leading part); at exact arithmetic the leading part is v itself, so the remainder is v - v, and
  the projected features come out as the three-term sum
      h3(k, q) = Σ_j x·W + Σ_j x·(W - W) + Σ_j (x - x)·W.
  It then splits h3 the same way, multiplies the adjacency block against the pair (h3 | h3 - h3) in one product of
  width 256, and adds the two halves:
      out(p, q) = max(Σ_k adj(p, k)·h3(k, q) + Σ_k adj(p, k)·(h3(k, q) - h3(k, q)), 0).
  On the extended reals v - v is 0 exactly when v is finite (an infinity minus itself is not 0), so the two agree when
  x and W are finite: then every x - x and W - W is 0, h3 = h is a finite sum of finite products, hence finite, and
  h3 - h3 = 0. Nothing is asked of adj: a product with 0 is 0 whatever the other factor.
-/
import Idealize.ShloMosaic.PureOps.Ideal
import Idealize.ShloMosaic.Lib.ValueIdx
import proofs.«158087_g22574348108057_cont_8to1_711_12_alg».proof.Proof.LibERealSum

noncomputable section

namespace Cert.GcnLayer

open Idealize.ShloMosaic Idealize.ShloMosaic.ValueIdx
open scoped BigOperators

/-- The shapes of the feature matrix (and of the result), the adjacency matrix and the weight matrix. -/
abbrev SX : Shape := ⟨2, ![10000, 128]⟩
abbrev SA : Shape := ⟨2, ![10000, 10000]⟩
abbrev SW : Shape := ⟨2, ![128, 128]⟩

/-- The projected features x · W at (k, q). -/
def proj (x : SX.Idx → EReal) (w : SW.Idx → EReal) (k : Fin 10000) (q : Fin 128) : EReal :=
  ∑ j : Fin 128, x (ix2 k j) * w (ix2 j q)

/-- The layer relu(adj · (x · W)) at (p, q). -/
def layer (x : SX.Idx → EReal) (adj : SA.Idx → EReal) (w : SW.Idx → EReal) (p : Fin 10000) (q : Fin 128) : EReal :=
  max (∑ k : Fin 10000, adj (ix2 p k) * proj x w k q) 0

/-- The projected features as the kernel forms them: the product of the operands, plus the two products in which one
    operand is replaced by its remainder v - v. -/
def proj3 (x : SX.Idx → EReal) (w : SW.Idx → EReal) (k : Fin 10000) (q : Fin 128) : EReal :=
  (∑ j : Fin 128, x (ix2 k j) * w (ix2 j q)) + (∑ j : Fin 128, x (ix2 k j) * (w (ix2 j q) - w (ix2 j q)))
    + (∑ j : Fin 128, (x (ix2 k j) - x (ix2 k j)) * w (ix2 j q))

/-- The layer as the kernel forms it: the adjacency row against the projected features, plus the adjacency row against
    their remainder, clamped at 0. -/
def layer3 (x : SX.Idx → EReal) (adj : SA.Idx → EReal) (w : SW.Idx → EReal) (p : Fin 10000) (q : Fin 128) : EReal :=
  max ((∑ k : Fin 10000, adj (ix2 p k) * proj3 x w k q)
    + (∑ k : Fin 10000, adj (ix2 p k) * (proj3 x w k q - proj3 x w k q))) 0

/-- Every entry is a real number. -/
def AllReal {s : Shape} (v : s.Idx → EReal) : Prop := ∀ i, ∃ r : ℝ, v i = (r : EReal)

/-- A real number minus itself is 0 on the extended reals. -/
theorem coe_sub_self (r : ℝ) : ((r : EReal) - (r : EReal)) = 0 := by
  rw [← EReal.coe_sub, sub_self, EReal.coe_zero]

variable {x : SX.Idx → EReal} {w : SW.Idx → EReal}

/-- For finite operands the two remainder products vanish term by term. -/
theorem proj3_eq (hx : AllReal x) (hw : AllReal w) (k : Fin 10000) (q : Fin 128) : proj3 x w k q = proj x w k q := by
  have h2 : ∀ j : Fin 128, x (ix2 k j) * (w (ix2 j q) - w (ix2 j q)) = 0 := fun j => by
    obtain ⟨r, hr⟩ := hw (ix2 j q); rw [hr, coe_sub_self, mul_zero]
  have h3 : ∀ j : Fin 128, (x (ix2 k j) - x (ix2 k j)) * w (ix2 j q) = 0 := fun j => by
    obtain ⟨r, hr⟩ := hx (ix2 k j); rw [hr, coe_sub_self, zero_mul]
  unfold proj3 proj
  simp only [h2, h3, Finset.sum_const_zero, add_zero]

/-- For finite operands the projected features are finite: a finite sum of products of reals. -/
theorem proj_real (hx : AllReal x) (hw : AllReal w) (k : Fin 10000) (q : Fin 128) : ∃ r : ℝ, proj x w k q = (r : EReal) := by
  choose xr hxr using hx
  choose wr hwr using hw
  refine ⟨∑ j : Fin 128, xr (ix2 k j) * wr (ix2 j q), ?_⟩
  unfold proj
  rw [← Cert.Lib.sum_coe]
  exact Finset.sum_congr rfl fun j _ => by rw [hxr, hwr, EReal.coe_mul]

/-- THE LAW: for finite feature and weight matrices the kernel's form of the layer is the layer, whatever the adjacency
    matrix holds. -/
theorem layer3_eq (hx : AllReal x) (hw : AllReal w) (adj : SA.Idx → EReal) (p : Fin 10000) (q : Fin 128) :
    layer3 x adj w p q = layer x adj w p q := by
  have hp : ∀ k : Fin 10000, proj3 x w k q = proj x w k q := fun k => proj3_eq hx hw k q
  have hz : ∀ k : Fin 10000, adj (ix2 p k) * (proj x w k q - proj x w k q) = 0 := fun k => by
    obtain ⟨r, hr⟩ := proj_real hx hw k q; rw [hr, coe_sub_self, mul_zero]
  unfold layer3 layer
  simp only [hp, hz, Finset.sum_const_zero, add_zero]

end Cert.GcnLayer

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.KernelIdealPayload.lean ====
/-
  The body's stored values, read at an index at exact arithmetic.

  The first point stores into the scratch, for each node k, a row of 256 numbers: columns 0-127 hold the projected
  features of the node as the kernel forms them (the three-term sum), columns 128-255 hold that row minus itself - at
  exact arithmetic a change of float format is the identity, so "the value minus its leading part" is the value minus
  itself. Every point stores, for each of its 400 rows p and each column q, the maximum with 0 of the sum of two entries
  of ONE product of width 256: the adjacency row p against the scratch, at columns q and q + 128. A product of an
  [A, K] by a [K, B] matrix into the zero accumulator is, at (p, q), the sum over k of left(p, k) · right(k, q).
-/
import proofs.«158087_g22574348108057_cont_8to1_711_12_alg».proof.Proof.Gen.KernelIdeal.Skeleton
import proofs.«158087_g22574348108057_cont_8to1_711_12_alg».proof.Proof.GcnLayer
import proofs.«158087_g22574348108057_cont_8to1_711_12_alg».proof.Proof.LibMatmul2
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx Idealize.ShloMosaic.Pipeline
open Cert.GcnLayer (proj3)

/-- The first product, [10000,128] by [128,128], at (k, q). -/
theorem mm1 {φ₁ φ₂ : FTy} (l : FVec Ideal S10000x128 φ₁) (r : FVec Ideal S128x128 φ₂) (k : Fin 10000) (q : Fin 128) :
    matmul dot_S10000x128_S128x128_S10000x128_1_0_0_1_n_n none l r (constant S10000x128 .f32 0x00000000#32) (ix2 k q)
      = ∑ j : Fin 128, l (ix2 k j) * r (ix2 j q) :=
  Cert.Lib.matmul2_zero_apply Facts₀.dot_S10000x128_S128x128_S10000x128_1_0_0_1_n_n_wf l r k q

/-- The second product, [200,10000] by [10000,256], at (p, q). -/
theorem mm2 {φ₁ φ₂ : FTy} (l : FVec Ideal S200x10000 φ₁) (r : FVec Ideal S10000x256 φ₂) (p : Fin 200) (q : Fin 256) :
    matmul dot_S200x10000_S10000x256_S200x256_1_0_0_1_n_n none l r (constant S200x256 .f32 0x00000000#32) (ix2 p q)
      = ∑ k : Fin 10000, l (ix2 p k) * r (ix2 k q) :=
  Cert.Lib.matmul2_zero_apply Facts₀.dot_S200x10000_S10000x256_S200x256_1_0_0_1_n_n_wf l r p q

/-- Column q of the left half, and column q + 128 of the right half, of a row of 256. -/
abbrev lo (q : Fin 128) : Fin 256 := ⟨q.val, by have := q.isLt; omega⟩
abbrev hi (q : Fin 128) : Fin 256 := ⟨q.val + 128, by have := q.isLt; omega⟩

/-- The stored pair's left half is the three-term projected features, -/
theorem pay1_lo (x : Vec Ideal S10000x128 .f32) (w : Vec Ideal S128x128 .f32) (k : Fin 10000) (q : Fin 128) :
    k0_pay1 (F := Ideal) x w (ix2 k (lo q)) = proj3 x w k q := by
  unfold k0_pay1
  refine (congrFun (shapeCast_self _ _) _).trans ?_
  refine (concatenate_pair_apply_left (t := S10000x256) (s₁ := S10000x128) (s₂ := S10000x128) (1 : Fin 2) _ _
    Facts₀.concatenates_S10000x128_S10000x128_S10000x256_d1 (ix2 k (lo q)) rfl (ix2 k q)
    (fun b => by match b with | ⟨0, _⟩ => rfl | ⟨1, _⟩ => rfl)).trans ?_
  unfold proj3
  exact congrArg₂ (· + ·) (congrArg₂ (· + ·) (mm1 _ _ k q) (mm1 _ _ k q)) (mm1 _ _ k q)

/-- and its right half is that minus itself. -/
theorem pay1_hi (x : Vec Ideal S10000x128 .f32) (w : Vec Ideal S128x128 .f32) (k : Fin 10000) (q : Fin 128) :
    k0_pay1 (F := Ideal) x w (ix2 k (hi q)) = proj3 x w k q - proj3 x w k q := by
  unfold k0_pay1
  refine (congrFun (shapeCast_self _ _) _).trans ?_
  refine (concatenate_pair_apply_right (t := S10000x256) (s₁ := S10000x128) (s₂ := S10000x128) (1 : Fin 2) _ _
    Facts₀.concatenates_S10000x128_S10000x128_S10000x256_d1 (ix2 k (hi q)) rfl rfl (ix2 k q)
    (fun b hb => by match b with | ⟨0, _⟩ => rfl | ⟨1, _⟩ => exact absurd rfl hb) rfl).trans ?_
  unfold proj3
  exact congrArg₂ (· - ·) (congrArg₂ (· + ·) (congrArg₂ (· + ·) (mm1 _ _ k q) (mm1 _ _ k q)) (mm1 _ _ k q))
    (congrArg₂ (· + ·) (congrArg₂ (· + ·) (mm1 _ _ k q) (mm1 _ _ k q)) (mm1 _ _ k q))

/-- A point's first store, at row p and column q of its 200-row tile. -/
theorem pay2_apply (S : Vec Ideal S10000x256 .bf16) (a : Vec Ideal S200x10000 .f32) (p : Fin 200) (q : Fin 128) :
    k0_pay2 (F := Ideal) S a (ix2 p q)
      = max ((∑ k : Fin 10000, a (ix2 p k) * S (ix2 k (lo q))) + (∑ k : Fin 10000, a (ix2 p k) * S (ix2 k (hi q)))) 0 := by
  unfold k0_pay2
  rw [maximumf_apply, addf_apply]
  refine congrArg₂ max (congrArg₂ (· + ·) ?_ ?_) ?_
  · refine (extractStridedSlice_apply ![0, 0] _ Facts₀.slices_S200x256_o0_0_S200x128 (ix2 p q) (ix2 p (lo q))
      (fun b => by match b with | ⟨0, _⟩ => exact (Nat.zero_add _).symm | ⟨1, _⟩ => exact (Nat.zero_add _).symm)).trans ?_
    exact mm2 _ _ p (lo q)
  · refine (extractStridedSlice_apply ![0, 128] _ Facts₀.slices_S200x256_o0_128_S200x128 (ix2 p q) (ix2 p (hi q))
      (fun b => by match b with | ⟨0, _⟩ => exact (Nat.zero_add _).symm | ⟨1, _⟩ => exact Nat.add_comm _ _)).trans ?_
    exact mm2 _ _ p (hi q)
  · exact Ideal.ofBits_zero_f32

/-- A point's second store: the same function of the scratch and of the other adjacency block. -/
theorem pay3_apply (S : Vec Ideal S10000x256 .bf16) (a : Vec Ideal S200x10000 .f32) (p : Fin 200) (q : Fin 128) :
    k0_pay3 (F := Ideal) S a (ix2 p q)
      = max ((∑ k : Fin 10000, a (ix2 p k) * S (ix2 k (lo q))) + (∑ k : Fin 10000, a (ix2 p k) * S (ix2 k (hi q)))) 0 := by
  unfold k0_pay3
  rw [maximumf_apply, addf_apply]
  refine congrArg₂ max (congrArg₂ (· + ·) ?_ ?_) ?_
  · refine (extractStridedSlice_apply ![0, 0] _ Facts₀.slices_S200x256_o0_0_S200x128 (ix2 p q) (ix2 p (lo q))
      (fun b => by match b with | ⟨0, _⟩ => exact (Nat.zero_add _).symm | ⟨1, _⟩ => exact (Nat.zero_add _).symm)).trans ?_
    exact mm2 _ _ p (lo q)
  · refine (extractStridedSlice_apply ![0, 128] _ Facts₀.slices_S200x256_o0_128_S200x128 (ix2 p q) (ix2 p (hi q))
      (fun b => by match b with | ⟨0, _⟩ => exact (Nat.zero_add _).symm | ⟨1, _⟩ => exact Nat.add_comm _ _)).trans ?_
    exact mm2 _ _ p (hi q)
  · exact Ideal.ofBits_zero_f32

/-- So a tile's entry, when the scratch holds the first point's stored pair, is the kernel's form of the layer over the
    tile's adjacency rows. -/
theorem tile_apply (x : Vec Ideal S10000x128 .f32) (w : Vec Ideal S128x128 .f32) (a : Vec Ideal S200x10000 .f32) (p : Fin 200) (q : Fin 128) :
    max ((∑ k : Fin 10000, a (ix2 p k) * k0_pay1 (F := Ideal) x w (ix2 k (lo q))) + (∑ k : Fin 10000, a (ix2 p k) * k0_pay1 (F := Ideal) x w (ix2 k (hi q)))) 0
      = max ((∑ k : Fin 10000, a (ix2 p k) * proj3 x w k q) + (∑ k : Fin 10000, a (ix2 p k) * (proj3 x w k q - proj3 x w k q))) 0 := by
  simp only [pay1_lo, pay1_hi]

end Cert.KernelIdeal.Payload

end
-- ==== Proof.KernelIdealValue.lean ====
/-
  The kernel's result array.

  Point t of the 25 writes back rows 400t .. 400t + 399 of the result. Its first tile (rows 400t + p, p < 200) is computed
  from the adjacency rows 400t + p - the point's block of the even window, block index 2t of 200 rows - and its second tile
  (rows 400t + 200 + p) from the adjacency rows 400t + 200 + p - the odd window's block 2t + 1 -, both against the scratch,
  which holds the stored pair of the whole feature matrix and the whole weight matrix (their windows' one block is the
  whole array). So, for finite feature and weight matrices, every entry (r, q) the point writes is the layer at (r, q),
  and the 25 blocks tile the 10000 rows: the result array ends holding the layer.
-/
import proofs.«158087_g22574348108057_cont_8to1_711_12_alg».proof.Proof.KernelIdealFrame
import proofs.«158087_g22574348108057_cont_8to1_711_12_alg».proof.Proof.KernelIdealPieces
import proofs.«158087_g22574348108057_cont_8to1_711_12_alg».proof.Proof.KernelIdealPayload
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open Cert.GcnLayer (layer AllReal layer3_eq)

variable (m : (ℓ : Loc nD τ sig) → Buf (Elt Ideal) ℓ) (ρ : Dev nD → PrngReg)

/-- The three argument arrays as the region finds them. -/
abbrev X (c : Dev nD) : Vec Ideal S10000x128 .f32 := V m c main_arg0
abbrev A (c : Dev nD) : Vec Ideal S10000x10000 .f32 := V m c main_arg1
abbrev W (c : Dev nD) : Vec Ideal S128x128 .f32 := V m c main_arg2

/-- The printed index maps, decided over the grid: the feature and weight windows stay at block (0, 0); the even and the
    odd adjacency windows are at row blocks 2t and 2t + 1; the output window is at row block t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = t.val ∧ win0_4.index t (1 : Fin 2) = 0 :=
  (by decide +kernel : ∀ t : Fin grid0.N, _)

/-- The feature window's one block is the whole feature matrix, -/
theorem iblk0_eq (c : Dev nD) : (iblk m c 0 t₀ : Vec Ideal S10000x128 .f32) = X m c := by
  obtain ⟨e0, e1, -⟩ := idx_facts t₀
  funext j
  unfold iblk
  rw [View.read_apply]
  show V m c main_arg0 _ = V m c main_arg0 j
  congr 1
  funext a; apply Fin.ext
  match a with
  | ⟨0, _⟩ => show win0_0.index t₀ (0 : Fin 2) * 10000 + 1 * (j 0).val = (j 0).val; omega
  | ⟨1, _⟩ => show win0_0.index t₀ (1 : Fin 2) * 128 + 1 * (j 1).val = (j 1).val; omega

/-- and the weight window's the whole weight matrix. -/
theorem iblk1_eq (c : Dev nD) : (iblk m c 1 t₀ : Vec Ideal S128x128 .f32) = W m c := by
  obtain ⟨-, -, e2, e3, -⟩ := idx_facts t₀
  funext j
  unfold iblk
  rw [View.read_apply]
  show V m c main_arg2 _ = V m c main_arg2 j
  congr 1
  funext a; apply Fin.ext
  match a with
  | ⟨0, _⟩ => show win0_1.index t₀ (0 : Fin 2) * 128 + 1 * (j 0).val = (j 0).val; omega
  | ⟨1, _⟩ => show win0_1.index t₀ (1 : Fin 2) * 128 + 1 * (j 1).val = (j 1).val; omega

/-- The result rows point `t`'s two tiles hold. -/
def rowLo (t : Fin cfg0.N) (p : Fin 200) : Fin 10000 :=
  ⟨400 * t.val + p.val, by have := lt_of_lt_of_eq t.isLt (show cfg0.N = 25 from N_0); have := p.isLt; omega⟩
def rowHi (t : Fin cfg0.N) (p : Fin 200) : Fin 10000 :=
  ⟨400 * t.val + 200 + p.val, by have := lt_of_lt_of_eq t.isLt (show cfg0.N = 25 from N_0); have := p.isLt; omega⟩

/-- The even adjacency window's block at point `t` is adjacency rows 400t + p, -/
theorem iblk2_apply (c : Dev nD) (t : Fin cfg0.N) (p : Fin 200) (k : Fin 10000) :
    (iblk m c 2 t : Vec Ideal S200x10000 .f32) (ix2 p k) = A m c (ix2 (rowLo t p) k) := by
  obtain ⟨-, -, -, -, e4, e5, -⟩ := idx_facts t
  unfold iblk
  rw [View.read_apply]
  show V m c main_arg1 _ = V m c main_arg1 _
  congr 1
  funext a; apply Fin.ext
  match a with
  | ⟨0, _⟩ => show win0_2.index t (0 : Fin 2) * 200 + 1 * p.val = 400 * t.val + p.val; omega
  | ⟨1, _⟩ => show win0_2.index t (1 : Fin 2) * 10000 + 1 * k.val = k.val; omega

/-- and the odd window's is adjacency rows 400t + 200 + p. -/
theorem iblk3_apply (c : Dev nD) (t : Fin cfg0.N) (p : Fin 200) (k : Fin 10000) :
    (iblk m c 3 t : Vec Ideal S200x10000 .f32) (ix2 p k) = A m c (ix2 (rowHi t p) k) := by
  obtain ⟨-, -, -, -, -, -, e6, e7, -⟩ := idx_facts t
  unfold iblk
  rw [View.read_apply]
  show V m c main_arg1 _ = V m c main_arg1 _
  congr 1
  funext a; apply Fin.ext
  match a with
  | ⟨0, _⟩ => show win0_3.index t (0 : Fin 2) * 200 + 1 * p.val = 400 * t.val + 200 + p.val; omega
  | ⟨1, _⟩ => show win0_3.index t (1 : Fin 2) * 10000 + 1 * k.val = k.val; omega

/-- A point's first tile, over the stored pair of the whole feature and weight matrices, is the layer on its rows, -/
theorem tile_lo (c : Dev nD) (hx : AllReal (X m c)) (hw : AllReal (W m c)) (t : Fin cfg0.N) (x : S200x128.Idx) :
    k0_pay2 (F := Ideal) (k0_pay1 (iblk m c 0 t₀) (iblk m c 1 t₀)) (iblk m c 2 t) x
      = layer (X m c) (A m c) (W m c) (rowLo t (x 0)) (x 1) := by
  obtain ⟨p, q, rfl⟩ : ∃ (p : Fin 200) (q : Fin 128), x = ix2 p q := ⟨x 0, x 1, eq_ix2 x⟩
  rw [iblk0_eq, iblk1_eq]
  refine (Payload.pay2_apply _ _ p q).trans ?_
  refine (Payload.tile_apply _ _ _ p q).trans ?_
  simp only [iblk2_apply]
  exact layer3_eq hx hw (A m c) (rowLo t p) q

/-- and its second tile likewise. -/
theorem tile_hi (c : Dev nD) (hx : AllReal (X m c)) (hw : AllReal (W m c)) (t : Fin cfg0.N) (x : S200x128.Idx) :
    k0_pay3 (F := Ideal) (k0_pay1 (iblk m c 0 t₀) (iblk m c 1 t₀)) (iblk m c 3 t) x
      = layer (X m c) (A m c) (W m c) (rowHi t (x 0)) (x 1) := by
  obtain ⟨p, q, rfl⟩ : ∃ (p : Fin 200) (q : Fin 128), x = ix2 p q := ⟨x 0, x 1, eq_ix2 x⟩
  rw [iblk0_eq, iblk1_eq]
  refine (Payload.pay3_apply _ _ p q).trans ?_
  refine (Payload.tile_apply _ _ _ p q).trans ?_
  simp only [iblk3_apply]
  exact layer3_eq hx hw (A m c) (rowHi t p) q

/-- What the result array ends holding: the layer of the three argument arrays. -/
def result (c : Dev nD) : Vec Ideal S10000x128 .f32 := fun i => layer (X m c) (A m c) (W m c) (i 0) (i 1)

/-- The layer on a tile's rows is the result array at the place of the output block where the tile's store puts it. -/
theorem at_lo (c : Dev nD) (t : Fin cfg0.N) (x : S200x128.Idx) :
    layer (X m c) (A m c) (W m c) (rowLo t (x 0)) (x 1)
      = result m c (((cfg0.win 4).blk t).view.emb ((Rect.unit (s := S400x128) ![0, 0] S200x128.size inb_S400x128_S200x128_0_0).emb x)) := by
  obtain ⟨-, -, -, -, -, -, -, -, e8, e9⟩ := idx_facts t
  unfold result
  refine congrArg₂ (layer (X m c) (A m c) (W m c)) (Fin.ext ?_) (Fin.ext ?_)
  · show 400 * t.val + (x 0).val = win0_4.index t (0 : Fin 2) * 400 + 1 * (0 + 1 * (x 0).val); omega
  · show (x 1).val = win0_4.index t (1 : Fin 2) * 128 + 1 * (0 + 1 * (x 1).val); omega

theorem at_hi (c : Dev nD) (t : Fin cfg0.N) (x : S200x128.Idx) :
    layer (X m c) (A m c) (W m c) (rowHi t (x 0)) (x 1)
      = result m c (((cfg0.win 4).blk t).view.emb ((Rect.unit (s := S400x128) ![200, 0] S200x128.size inb_S400x128_S200x128_200_0).emb x)) := by
  obtain ⟨-, -, -, -, -, -, -, -, e8, e9⟩ := idx_facts t
  unfold result
  refine congrArg₂ (layer (X m c) (A m c) (W m c)) (Fin.ext ?_) (Fin.ext ?_)
  · show 400 * t.val + 200 + (x 0).val = win0_4.index t (0 : Fin 2) * 400 + 1 * (200 + 1 * (x 0).val); omega
  · show (x 1).val = win0_4.index t (1 : Fin 2) * 128 + 1 * (0 + 1 * (x 1).val); omega

/-- What the output window holds after point `t`, at a block index, is the result array at that index's place. -/
theorem outAt_apply (c : Dev nD) (hx : AllReal (X m c)) (hw : AllReal (W m c)) (t : Fin cfg0.N) (y : S400x128.Idx) :
    outAt m c t y = result m c (((cfg0.win 4).blk t).view.emb y) := by
  by_cases h0 : t.val = 0
  · obtain rfl : t = t₀ := Fin.ext h0
    rw [outAt_first m c t₀ rfl]
    exact outFirst_apply c (grid0.coords t₀) (ms0 t₀) (hs0 t₀) (ms1 t₀) (hs1 t₀) (ms2 t₀) (hs2 t₀) (ms3 t₀) (hs3 t₀) (ms4 t₀) (hs4 t₀) scM (Memref.isWhole_whole _) ((hcond0 t₀).mpr rfl) (iblk m c 0 t₀) (iblk m c 1 t₀) (iblk m c 2 t₀) (iblk m c 3 t₀)
      (fun y' => result m c (((cfg0.win 4).blk t₀).view.emb y'))
      (fun x => (tile_hi m c hx hw t₀ x).trans (at_hi m c t₀ x)) (fun x => (tile_lo m c hx hw t₀ x).trans (at_lo m c t₀ x)) y
  · rw [outAt_later m c t h0]
    refine outLater_apply c (grid0.coords t) (ms0 t) (hs0 t) (ms1 t) (hs1 t) (ms2 t) (hs2 t) (ms3 t) (hs3 t) (ms4 t) (hs4 t) scM (Memref.isWhole_whole _) (fun hc => h0 ((hcond0 t).mp hc)) (iblk m c 0 t) (iblk m c 1 t) (iblk m c 2 t) (iblk m c 3 t) (scr m c)
      (fun y' => result m c (((cfg0.win 4).blk t).view.emb y')) ?_ ?_ y
    · intro x; rw [scr_eq]; exact (tile_hi m c hx hw t x).trans (at_hi m c t x)
    · intro x; rw [scr_eq]; exact (tile_lo m c hx hw t x).trans (at_lo m c t x)

/-- WHAT POINT `t` WRITES BACK is block `t` of the result. -/
theorem flushed_eq (c : Dev nD) (hx : AllReal (X m c)) (hw : AllReal (W m c)) (t : Fin cfg0.N) :
    (dats m 0 c).flushed 4 t = ((cfg0.win 4).blk t).view.read (Elt Ideal) (result m c) := by
  show (cfg0.win 4).cut (grid0.coords t) ((dats m 0 c).after 4 t) = _
  rw [after4]
  funext y
  exact outAt_apply m c hx hw t y

/-- An index of the result array is in point `t`'s block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Every index of the result array is in the block of the point its row selects: row r is in block r / 400. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by omega⟩, rfl⟩
  obtain ⟨-, -, -, -, -, -, -, -, e8, e9⟩ := idx_facts t
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- THE RESULT ARRAY after the run is the layer of the argument arrays. -/
theorem final (c : Dev nD) (hx : AllReal (X m c)) (hw : AllReal (W m c)) : (dats m 0 c).arrAt 4 cfg0.N = result m c :=
  (dats m 0 c).arrAt_eq_of_cover 4 (result m c) (fun t _ => flushed_eq m c hx hw t) (cover)

/-- The run, read: the result array at the layer, the argument arrays unchanged. -/
theorem run (hfin : ∀ c : Dev nD, AllReal (X m c) ∧ AllReal (W m c)) :
    θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 4).trans (final m c (hfin c).1 (hfin c).2),
     ((h c).1 0).trans (((dats m 0 c).arrAt_in 0 rfl _).trans (A_eq m c 0)),
     ((h c).1 2).trans (((dats m 0 c).arrAt_in 2 rfl _).trans (A_eq m c 2)),
     ((h c).1 1).trans (((dats m 0 c).arrAt_in 1 rfl _).trans (A_eq m c 1))⟩) (run_main m ρ)

end Cert.KernelIdeal.Frame

end
-- ==== Proof.RefLayer.lean ====
/-
  The reference computes the layer.

  The reference is three host operations: x · W, then adj · (that), then the maximum against a broadcast 0. Read at a
  result index i = (p, q) at exact arithmetic, the outer product is the sum over k of adj(p, k) times the inner product at
  (k, q), which is the sum over j of x(k, j) · W(j, q): the layer's formula, term for term.
-/
import proofs.«158087_g22574348108057_cont_8to1_711_12_alg».proof.Proof.Gen.ReferenceIdeal.Read
import proofs.«158087_g22574348108057_cont_8to1_711_12_alg».proof.Proof.GcnLayer

noncomputable section

namespace Cert.ReferenceIdeal.RefValue

open Cert.ReferenceIdeal Cert.ReferenceIdeal.Gen Cert.ReferenceIdeal.Read
open Idealize.ShloMosaic Idealize.ShloMosaic.ValueIdx

/-- The reference's result at an index is the layer at the index's coordinates. -/
theorem ref_apply (x : (⟨S10000x128, .f32⟩ : BufTy).Contents (Elt Ideal)) (adj : (⟨S10000x10000, .f32⟩ : BufTy).Contents (Elt Ideal))
    (w : (⟨S128x128, .f32⟩ : BufTy).Contents (Elt Ideal)) (i : S10000x128.Idx) :
    val_main_v2 (F := Ideal) x adj w i = Cert.GcnLayer.layer x adj w (i 0) (i 1) := by
  have e1 : ∀ k : Fin 10000, lidx_main_v1 i k = ix2 (i 0) k := fun k =>
    funext fun a => by match a with | ⟨0, _⟩ => rfl | ⟨1, _⟩ => rfl
  have e2 : ∀ (k : Fin 10000) (j : Fin 128), lidx_main_v0 (ridx_main_v1 i k) j = ix2 k j := fun k j =>
    funext fun a => by match a with | ⟨0, _⟩ => rfl | ⟨1, _⟩ => rfl
  have e3 : ∀ (k : Fin 10000) (j : Fin 128), ridx_main_v0 (ridx_main_v1 i k) j = ix2 j (i 1) := fun k j =>
    funext fun a => by match a with | ⟨0, _⟩ => rfl | ⟨1, _⟩ => rfl
  rw [val_main_v2_apply, val_main_v1_apply, val_main_call0_v0_apply, val_main_call0_cst_apply]
  simp only [val_main_v0_apply, e1, e2, e3]
  show max _ (Ideal.ofBits .f32 0x00000000#32) = _
  rw [Ideal.ofBits_zero_f32]
  rfl

end Cert.ReferenceIdeal.RefValue

end
-- ==== Proof.FiniteInputs.lean ====
/-
  The precondition says that every entry of the three argument arrays is a real number.

  It is the conjunction of three tests "all |v| < +∞", one per array, each a reduction by "and" of the elementwise
  comparison of |v| against the +∞ word. The conjunction being 1, each test is 1; a reduction by "and" that is 1 met only
  1s; and an extended real whose absolute value max(v, -v) lies strictly below +∞ is neither infinity, so it is a real.
-/
import proofs.«158087_g22574348108057_cont_8to1_711_12_alg».proof.Pre_finite_inputs
import proofs.«158087_g22574348108057_cont_8to1_711_12_alg».proof.Proof.GcnLayer
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Decode

open Cert.Pre_finite_inputs Idealize.ShloMosaic Idealize.ShloMosaic.ValueIdx Idealize.ShloMosaic.Pipeline
open Cert.GcnLayer (AllReal)

instance : Subsingleton S_.Idx := ⟨fun a b => funext fun d => d.elim0⟩

/-- An extended real whose absolute value is strictly below +∞ is a real number. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- One array's test at an index. -/
theorem entry_real {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) :
    ∃ r : ℝ, x i = (r : EReal) := by
  have hc : broadcastInDim s ![] hb (constant (F := Ideal) S_ .f32 0x7F800000#32) i = Ideal.ofBits .f32 0x7F800000#32 :=
    broadcastInDim_apply _ hb _ i ix0 (fun a => a.elim0)
  have e' : Ideal.cmp .olt (max (x i) (-(x i))) (broadcastInDim s ![] hb (constant (F := Ideal) S_ .f32 0x7F800000#32) i) = 1#1 := e
  rw [hc] at e'
  exact real_of_abs_lt (x i) e'

variable [Facts]

/-- The precondition at exact arithmetic: every entry of the feature matrix and of the weight matrix is real (so is every
    entry of the adjacency matrix; the proof of the layer does not need it). -/
theorem allReal_of_pre (x : FVec Ideal S10000x128 .f32) (adj : FVec Ideal S10000x10000 .f32) (w : FVec Ideal S128x128 .f32)
    (h : fn (F := Ideal) x adj w = fun _ => 1#1) : AllReal x ∧ AllReal w := by
  have h0 := congrFun h ix0
  dsimp only [fn] at h0
  have h1 := IntOp.andi_eq_one.mp h0
  have h2 := IntOp.andi_eq_one.mp h1.1
  exact ⟨fun i => entry_real x Facts.bcast_S_S10000x128 i (Host.reduce_andi_all _ _ _ _ ix0 h2.1 i),
    fun i => entry_real w Facts.bcast_S_S128x128 i (Host.reduce_andi_all _ _ _ _ ix0 h1.2 i)⟩

end Cert.Pre_finite_inputs.Decode

end
-- ==== Proof.lean ====
/-
  A graph-convolution layer, out = relu(adj · (x · W)), as one Pallas kernel against its jnp reference.

  The kernel is one region of 25 grid points over the rows of the dense adjacency matrix. Its first point forms the
  projected features h = x · W from split operands (each operand's leading part and its remainder, multiplied in three
  products and added), splits h the same way, and keeps the pair (h | remainder of h) in a scratch buffer of width 256;
  every point multiplies its two blocks of 200 adjacency rows against that pair in one product of width 256, adds the two
  halves, clamps at 0 and stores 400 result rows. The adjacency matrix reaches the kernel through two input windows (its
  even and its odd blocks of 200 rows).

  The three frames. The reference is host operations only: its run terminates with the arguments unchanged. The kernel's
  frame - at the word level and idealized - is the pipeline's frame run for input windows that share an array: the body
  runs at every point (the branch on the first point decided by the point's number), the scratch is carried from the first
  point to the later ones, the adjacency matrix's share is split between its two windows.

  The idealization rewrote three "widen what was just narrowed" windows to the identity: preserves is the rule's statement,
  three times.

  The values. At exact arithmetic a change of float format is the identity, so a remainder v - (leading part of v) is
  v - v, which is 0 exactly when v is finite. The precondition makes x and W finite; then the three-product form of h is
  x · W, h is finite, its remainder is 0, and the second half of the wide product contributes adj · 0 = 0 whatever adj
  holds. So every row the kernel writes is max(Σ_k adj(p, k) · Σ_j x(k, j) · W(j, q), 0), which is what the reference's two
  products and maximum compute; and the 25 blocks of 400 rows tile the result.
-/
import proofs.«158087_g22574348108057_cont_8to1_711_12_alg».proof.Defs
import proofs.«158087_g22574348108057_cont_8to1_711_12_alg».proof.Proof.Gen.Kernel
import proofs.«158087_g22574348108057_cont_8to1_711_12_alg».proof.Proof.Gen.Kernel.Skeleton
import proofs.«158087_g22574348108057_cont_8to1_711_12_alg».proof.Proof.Gen.Kernel.Launch
import proofs.«158087_g22574348108057_cont_8to1_711_12_alg».proof.Proof.Gen.Kernel.Points
import proofs.«158087_g22574348108057_cont_8to1_711_12_alg».proof.Proof.Gen.KernelIdeal
import proofs.«158087_g22574348108057_cont_8to1_711_12_alg».proof.Proof.Gen.KernelIdeal.Skeleton
import proofs.«158087_g22574348108057_cont_8to1_711_12_alg».proof.Proof.Gen.KernelIdeal.Launch
import proofs.«158087_g22574348108057_cont_8to1_711_12_alg».proof.Proof.Gen.KernelIdeal.Points
import proofs.«158087_g22574348108057_cont_8to1_711_12_alg».proof.Proof.Gen.ReferenceIdeal
import proofs.«158087_g22574348108057_cont_8to1_711_12_alg».proof.Proof.Gen.Pre_finite_inputs
import proofs.«158087_g22574348108057_cont_8to1_711_12_alg».proof.Proof.Gen.ReferenceIdeal.Run
import proofs.«158087_g22574348108057_cont_8to1_711_12_alg».proof.Proof.Gen.ReferenceIdeal.Read
import proofs.«158087_g22574348108057_cont_8to1_711_12_alg».proof.Proof.KernelFrame
import proofs.«158087_g22574348108057_cont_8to1_711_12_alg».proof.Proof.KernelIdealValue
import proofs.«158087_g22574348108057_cont_8to1_711_12_alg».proof.Proof.RefLayer
import proofs.«158087_g22574348108057_cont_8to1_711_12_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Frame.frame m ρ

/-- So does the idealized kernel. -/
theorem frame_ki : Cert.frame_KernelIdeal := fun m ρ _ => Cert.KernelIdeal.Frame.frame m ρ

/-- The reference is host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's three rewrites, each "widening what was just narrowed is the identity at exact arithmetic". -/
theorem preserves : Cert.preserves_Kernel_KernelIdeal :=
  ⟨IdealRules.truncf_extf.statement _ .f32 .bf16, IdealRules.truncf_extf.statement _ .f32 .bf16,
    IdealRules.truncf_extf.statement _ .f32 .bf16⟩

/-- From memories that agree on the arguments, both programs end with the layer of the arguments in their result: the
    kernel by its result array's closed form (the precondition gives the finiteness it needs), the reference by reading
    its three operations at an index. -/
theorem algebraic : Cert.algebraic_KernelIdeal_ReferenceIdeal := by
  intro m ρ m' ρ' hpre hagree
  have hfin : ∀ c : Dev Cert.KernelIdeal.nD,
      Cert.GcnLayer.AllReal (Cert.KernelIdeal.Frame.X m c) ∧ Cert.GcnLayer.AllReal (Cert.KernelIdeal.Frame.W m c) := fun c =>
    Cert.Pre_finite_inputs.Decode.allReal_of_pre _ _ _ (hpre c)
  refine ⟨fun c => Cert.KernelIdeal.Frame.result m c, Cert.KernelIdeal.Frame.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, (hagree c).1, (hagree c).2.1, (hagree c).2.2]
  funext i
  exact (Cert.ReferenceIdeal.RefValue.ref_apply _ _ _ i).trans rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
